-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : FVec F S4096x1 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S8192x4096 : Shape := ⟨2, ![8192, 4096]⟩
abbrev S1x4096 : Shape := ⟨2, ![1, 4096]⟩
abbrev S2048x256 : Shape := ⟨2, ![2048, 256]⟩
abbrev S1024x256 : Shape := ⟨2, ![1024, 256]⟩
abbrev S1024x1 : Shape := ⟨2, ![1024, 1]⟩
abbrev S1x1024 : Shape := ⟨2, ![1, 1024]⟩
abbrev S2048x1024 : Shape := ⟨2, ![2048, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S4x2048x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .i32⟩
  | .local _ .vmem, ⟨3, _⟩ => ⟨S1024x256, .i32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v18 : BitVec 1 := Scalar.cmpi .eq arg2 c15_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S1024x1_S1024x1_0_0 : ∀ a, (![0, 0] : Fin 2 → Nat) a + S1024x1.size a ≤ S1024x1.size a
  h_S1024x1 : 0 < S1024x1.numel
  broadcasts_S1024x1_S1024x256 : S1024x1.Broadcasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x4096_S4x2048x4096 : S8192x4096.ShapeCasts S4x2048x4096
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .i32 = 32 ∨ (Rect.block (s := S4096x4096) S1024x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S1x1x4096 : Shape := ⟨3, ![1, 1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4x2048x4096, .f32⟩
  | .hbm, ⟨8, _⟩ => ⟨S1x1x4096, .f32⟩
  | .hbm, ⟨9, _⟩ => ⟨S4x2048x4096, .f32⟩
  | .hbm, ⟨10, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What one run of the kernel body leaves, case by case, as the body's stored values of what it loaded.

  The body keeps a 2048 × 1024 accumulator between grid points.  At the first of the sixteen contraction steps it resets
  the accumulator to zero, reads it back and stores the step's value over it; at the later steps it stores the step's
  value over what the point before left; at the sixteenth it also stores, into the output block, the accumulator just
  written plus the bias block.  Every load and store goes through the whole buffer, so the contents left behind are
  the last store's value, and a value read back after a store is that store's value.
-/
import proofs.«181437_j65515431133373_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- At a point that neither starts nor ends a run of contraction steps the accumulator, holding `acc`, is left at the
    step's value over `acc`: the one covering store's payload, whose loads read the whole buffers. -/
theorem scratch_B (c : Dev nD) (i : grid0.Coords) (a3 : Memref sig .tc .vmem S2048x256 .f32) (h3 : a3.IsWhole) (a4 : Memref sig .tc .vmem S1024x256 .i32) (h4 : a4.IsWhole) (a5 : Memref sig .tc .vmem S1024x1 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : ¬cond0_1 i) (x0 : Vec F S2048x256 .f32) (x1 : Vec F S1024x256 .i32) (x2 : Vec F S1024x1 .f32) (x3 : Vec F S1x1024 .f32) (xs0 : Vec F S2048x1024 .f32) :
    sout0_B_0 c i a3 h3 a4 h4 a5 h5 a6 h6 a7 h7 a8 h8 hc0 hc1 x0 x1 x2 x3 xs0 = k0_pay2 x0 x1 x2 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  rw [View.canon_unit_zero hz]
  simp only [View.readAt_eq_ld, h3.read_unread, h4.read_unread, h5.read_unread, h6.read_unread, h8.read_unread, View.ld_unit_zero (S := S2048x256) hz, View.ld_unit_zero (S := S1024x256) hz, View.ld_unit_zero (S := S1024x1) hz, View.ld_unit_zero (S := S1x1024) hz, View.ld_unit_zero (S := S2048x1024) hz]

/-- At the last step of a run the accumulator is left the same way, -/
theorem scratch_C (c : Dev nD) (i : grid0.Coords) (a3 : Memref sig .tc .vmem S2048x256 .f32) (h3 : a3.IsWhole) (a4 : Memref sig .tc .vmem S1024x256 .i32) (h4 : a4.IsWhole) (a5 : Memref sig .tc .vmem S1024x1 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : cond0_1 i) (x0 : Vec F S2048x256 .f32) (x1 : Vec F S1024x256 .i32) (x2 : Vec F S1024x1 .f32) (x3 : Vec F S1x1024 .f32) (xs0 : Vec F S2048x1024 .f32) :
    sout0_C_0 c i a3 h3 a4 h4 a5 h5 a6 h6 a7 h7 a8 h8 hc0 hc1 x0 x1 x2 x3 xs0 = k0_pay2 x0 x1 x2 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words

  rw [View.canon_unit_zero hz]
  simp only [View.readAt_eq_ld, h3.read_unread, h4.read_unread, h5.read_unread, h6.read_unread, h8.read_unread, View.ld_unit_zero (S := S2048x256) hz, View.ld_unit_zero (S := S1024x256) hz, View.ld_unit_zero (S := S1024x1) hz, View.ld_unit_zero (S := S1x1024) hz, View.ld_unit_zero (S := S2048x1024) hz]

/-- and the output block receives the final value of that accumulator (read back after the step's store) and the bias
    block. -/
theorem out_C (c : Dev nD) (i : grid0.Coords) (a3 : Memref sig .tc .vmem S2048x256 .f32) (h3 : a3.IsWhole) (a4 : Memref sig .tc .vmem S1024x256 .i32) (h4 : a4.IsWhole) (a5 : Memref sig .tc .vmem S1024x1 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : ¬cond0_0 i) (hc1 : cond0_1 i) (x0 : Vec F S2048x256 .f32) (x1 : Vec F S1024x256 .i32) (x2 : Vec F S1024x1 .f32) (x3 : Vec F S1x1024 .f32) (xs0 : Vec F S2048x1024 .f32) :
    out0_C_4 c i a3 h3 a4 h4 a5 h5 a6 h6 a7 h7 a8 h8 hc0 hc1 x0 x1 x2 x3 xs0 = k0_pay3 (k0_pay2 x0 x1 x2 xs0) x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words

  rw [View.canon_unit_zero hz, View.readCov_unit_zero (S := S2048x1024) _ hz]
  simp only [View.readAt_eq_ld, h3.read_unread, h4.read_unread, h5.read_unread, h6.read_unread, h8.read_unread, View.ld_unit_zero (S := S2048x256) hz, View.ld_unit_zero (S := S1024x256) hz, View.ld_unit_zero (S := S1024x1) hz, View.ld_unit_zero (S := S1x1024) hz, View.ld_unit_zero (S := S2048x1024) hz]

/-- At the first step of a run the accumulator is reset, read back, and left at the step's value over the reset
    value. -/
theorem scratch_A (c : Dev nD) (i : grid0.Coords) (a3 : Memref sig .tc .vmem S2048x256 .f32) (h3 : a3.IsWhole) (a4 : Memref sig .tc .vmem S1024x256 .i32) (h4 : a4.IsWhole) (a5 : Memref sig .tc .vmem S1024x1 .f32) (h5 : a5.IsWhole) (a6 : Memref sig .tc .vmem S1x1024 .f32) (h6 : a6.IsWhole) (a7 : Memref sig .tc .vmem S2048x1024 .f32) (h7 : a7.IsWhole) (a8 : Memref sig .tc .vmem S2048x1024 .f32) (h8 : a8.IsWhole) (hc0 : cond0_0 i) (hc1 : ¬cond0_1 i) (x0 : Vec F S2048x256 .f32) (x1 : Vec F S1024x256 .i32) (x2 : Vec F S1024x1 .f32) (x3 : Vec F S1x1024 .f32) :
    sout0_A_0 c i a3 h3 a4 h4 a5 h5 a6 h6 a7 h7 a8 h8 hc0 hc1 x0 x1 x2 x3 = k0_pay2 x0 x1 x2 k0_pay1 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words

  rw [View.canon_cons_unit_zero (S := S2048x1024) hz, View.readCov_unit_zero (S := S2048x1024) _ hz]
  simp only [View.readAt_eq_ld, h3.read_unread, h4.read_unread, h5.read_unread, h6.read_unread, h8.read_unread, View.ld_unit_zero (S := S2048x256) hz, View.ld_unit_zero (S := S1024x256) hz, View.ld_unit_zero (S := S1024x1) hz, View.ld_unit_zero (S := S1x1024) hz, View.ld_unit_zero (S := S2048x1024) hz]

end Cert.KernelIdeal.Pieces
end
-- ==== Proof.Blocks.lean ====
/-
  Where the blocks of the four input windows sit in their arrays.

  The grid has 4 × 4 × 16 points; point `t` (row-major) has row-block `t / 64`, column-block `t / 16 % 4` and
  contraction step `t % 16`.  A block's entry at a coordinate inside the block is the array's entry at
  (block index × block size + coordinate), axis by axis:
  * the activations' block is rows `2048 · (t / 64) + p`, columns `256 · (t % 16) + kk`;
  * the weights' block is rows `1024 · (t / 16 % 4) + q`, columns `256 · (t % 16) + kk`;
  * the scales' block is rows `1024 · (t / 16 % 4) + q` of the one column;
  * the bias block is columns `1024 · (t / 16 % 4) + q` of the one row.
-/
import proofs.«181437_j65515431133373_1_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-! ## The arrays as the region finds them, and the windows' blocks, at their literal shapes -/

/-- The activations as an 8192 × 4096 array (the host's reshape of the argument). -/
abbrev actArr (c : Dev nD) : S8192x4096.Idx → F .f32 := V m c main_v0
/-- The integer weights. -/
abbrev wArr (c : Dev nD) : S4096x4096.Idx → BitVec 32 := V m c main_arg1
/-- The scales' column. -/
abbrev scaleArr (c : Dev nD) : S4096x1.Idx → F .f32 := V m c main_arg2
/-- The bias as a 1 × 4096 row (the host's reshape of the argument). -/
abbrev biasArr (c : Dev nD) : S1x4096.Idx → F .f32 := V m c main_v1

/-- The four input blocks at point `t`. -/
abbrev actBlk (c : Dev nD) (t : Fin cfg0.N) : Vec F S2048x256 .f32 := iblk m c 0 t
abbrev wBlk (c : Dev nD) (t : Fin cfg0.N) : Vec F S1024x256 .i32 := iblk m c 1 t
abbrev scaleBlk (c : Dev nD) (t : Fin cfg0.N) : Vec F S1024x1 .f32 := iblk m c 2 t
abbrev biasBlk (c : Dev nD) (t : Fin cfg0.N) : Vec F S1x1024 .f32 := iblk m c 3 t

/-- The five windows' block indices at every grid point, in closed form. -/
theorem idx_facts : ∀ t : Fin cfg0.N,
    win0_0.index t (0 : Fin 2) = t.val / 64 ∧ win0_0.index t (1 : Fin 2) = t.val % 16 ∧
    win0_1.index t (0 : Fin 2) = t.val / 16 % 4 ∧ win0_1.index t (1 : Fin 2) = t.val % 16 ∧
    win0_2.index t (0 : Fin 2) = t.val / 16 % 4 ∧ win0_2.index t (1 : Fin 2) = 0 ∧
    win0_3.index t (0 : Fin 2) = 0 ∧ win0_3.index t (1 : Fin 2) = t.val / 16 % 4 ∧
    win0_4.index t (0 : Fin 2) = t.val / 64 ∧ win0_4.index t (1 : Fin 2) = t.val / 16 % 4 :=
  (by decide +kernel : ∀ t : Fin grid0.N, _)

/-- The activations' block at point `t`. -/
theorem x_block (c : Dev nD) (t : Fin cfg0.N) (p : Fin 2048) (kk : Fin 256) (r : Fin 8192) (k : Fin 4096)
    (hr : r.val = 2048 * (t.val / 64) + p.val) (hk : k.val = 256 * (t.val % 16) + kk.val) :
    actBlk m c t (ix2 p kk) = actArr m c (ix2 r k) := by
  unfold actBlk actArr iblk
  rw [View.read_apply]
  show V m c main_v0 _ = V m c main_v0 _
  congr 1
  funext a
  apply Fin.ext
  match a with
  | ⟨0, _⟩ => show win0_0.index t 0 * 2048 + 1 * p.val = r.val; rw [(idx_facts t).1, hr]; omega
  | ⟨1, _⟩ => show win0_0.index t 1 * 256 + 1 * kk.val = k.val; rw [(idx_facts t).2.1, hk]; omega

/-- The weights' block at point `t`. -/
theorem w_block (c : Dev nD) (t : Fin cfg0.N) (q : Fin 1024) (kk : Fin 256) (o : Fin 4096) (k : Fin 4096)
    (ho : o.val = 1024 * (t.val / 16 % 4) + q.val) (hk : k.val = 256 * (t.val % 16) + kk.val) :
    wBlk m c t (ix2 q kk) = wArr m c (ix2 o k) := by
  unfold wBlk wArr iblk
  rw [View.read_apply]
  show V m c main_arg1 _ = V m c main_arg1 _
  congr 1
  funext a
  apply Fin.ext
  match a with
  | ⟨0, _⟩ => show win0_1.index t 0 * 1024 + 1 * q.val = o.val; rw [(idx_facts t).2.2.1, ho]; omega
  | ⟨1, _⟩ => show win0_1.index t 1 * 256 + 1 * kk.val = k.val; rw [(idx_facts t).2.2.2.1, hk]; omega

/-- The scales' block at point `t`. -/
theorem scale_block (c : Dev nD) (t : Fin cfg0.N) (q : Fin 1024) (o : Fin 4096)
    (ho : o.val = 1024 * (t.val / 16 % 4) + q.val) :
    scaleBlk m c t (ix2 q (0 : Fin 1)) = scaleArr m c (ix2 o (0 : Fin 1)) := by
  unfold scaleBlk scaleArr iblk
  rw [View.read_apply]
  show V m c main_arg2 _ = V m c main_arg2 _
  congr 1
  funext a
  apply Fin.ext
  match a with
  | ⟨0, _⟩ => show win0_2.index t 0 * 1024 + 1 * q.val = o.val; rw [(idx_facts t).2.2.2.2.1, ho]; omega
  | ⟨1, _⟩ => show win0_2.index t 1 * 1 + 1 * 0 = 0; rw [(idx_facts t).2.2.2.2.2.1]

/-- The bias block at point `t`. -/
theorem bias_block (c : Dev nD) (t : Fin cfg0.N) (q : Fin 1024) (o : Fin 4096)
    (ho : o.val = 1024 * (t.val / 16 % 4) + q.val) :
    biasBlk m c t (ix2 (0 : Fin 1) q) = biasArr m c (ix2 (0 : Fin 1) o) := by
  unfold biasBlk biasArr iblk
  rw [View.read_apply]
  show V m c main_v1 _ = V m c main_v1 _
  congr 1
  funext a
  apply Fin.ext
  match a with
  | ⟨0, _⟩ => show win0_3.index t 0 * 1 + 1 * 0 = 0; rw [(idx_facts t).2.2.2.2.2.2.1]
  | ⟨1, _⟩ => show win0_3.index t 1 * 1024 + 1 * q.val = o.val; rw [(idx_facts t).2.2.2.2.2.2.2.1, ho]; omega

end Cert.KernelIdeal.Blocks
end
-- ==== Proof.Recursion.lean ====
/-
  The recursion over the grid points that says what the accumulator and the output block hold, restated over the
  body's three stored values: after a first contraction step the accumulator is the step's value over the reset
  value; after a later step it is the step's value over what the point before left; at a sixteenth step the output
  block is the final value of that step's accumulator and the bias block.
-/
import proofs.«181437_j65515431133373_1_alg».proof.Proof.Pieces
import proofs.«181437_j65515431133373_1_alg».proof.Proof.Blocks

set_option maxRecDepth 16384

noncomputable section

namespace Cert.KernelIdeal.Recursion

open Cert.KernelIdeal Cert.KernelIdeal.Gen Idealize.ShloMosaic Idealize.ShloMosaic.TcCoe Idealize.SL.Sem
open Cert.KernelIdeal.Pieces Cert.KernelIdeal.Blocks

variable {F : FTy → Type} [FloatOps F]
variable (m : (ℓ : Loc nD τ sig) → Buf (Elt F) ℓ) (c : Dev nD)

/-- After a first step: the step's value over the reset value. -/
theorem acc_first (t : Fin cfg0.N) (h0 : t.val % 16 = 0) :
    (outsAt0 m c t.val t.isLt).2 = k0_pay2 (actBlk m c t) (wBlk m c t) (scaleBlk m c t) k0_pay1 := by
  have h1 : ¬t.val % 16 = 15 := by omega
  rw [outsAt0_A m c t h0 h1]
  dsimp only
  exact scratch_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- After a later step: the step's value over what the point before left. -/
theorem acc_next (t : Fin cfg0.N) (h0 : ¬t.val % 16 = 0) :
    (outsAt0 m c t.val t.isLt).2 = k0_pay2 (actBlk m c t) (wBlk m c t) (scaleBlk m c t) (outsAt0 m c (t.val - 1) (Nat.lt_of_le_of_lt (Nat.sub_le _ _) t.isLt)).2 := by
  by_cases h1 : t.val % 16 = 15
  · rw [outsAt0_C m c t h0 h1]
    dsimp only
    exact scratch_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact scratch_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- The output block at a sixteenth step: the final value of that step's accumulator and the bias block. -/
theorem out_last (t : Fin cfg0.N) (h1 : t.val % 16 = 15) :
    (outsAt0 m c t.val t.isLt).1
      = k0_pay3 (k0_pay2 (actBlk m c t) (wBlk m c t) (scaleBlk m c t) (outsAt0 m c (t.val - 1) (Nat.lt_of_le_of_lt (Nat.sub_le _ _) t.isLt)).2) (biasBlk m c t) := by
  have h0 : ¬t.val % 16 = 0 := by omega
  rw [outsAt0_C m c t h0 h1]
  dsimp only
  exact out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

end Cert.KernelIdeal.Recursion
end
-- ==== Proof.Payload.lean ====
/-
  The three values the kernel body stores, read at an index over the extended reals.

  * the reset value is the zero block;
  * the accumulation step stores, at row `p` and column `q` of the 2048 × 1024 block, the old accumulator there plus
    `∑ kk < 256, x (p, kk) · (w (q, kk) · scale (q, 0))`: the matrix product contracts the LAST axis of both operands,
    the integer weights are converted exactly, the per-row scale is a column broadcast along the contracted axis, and
    the two changes of float format are the identity on extended reals;
  * the final value adds the bias row, broadcast over the rows.
-/
import proofs.«181437_j65515431133373_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product's operand indices -/

theorem lhs_0 (i : S2048x1024.Idx) (k : dot_S2048x256_S1024x256_S2048x1024_1_1_0_0_n_n.contr.Idx) : (dot_S2048x256_S1024x256_S2048x1024_1_1_0_0_n_n.lhsIdx i k 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl
theorem lhs_1 (i : S2048x1024.Idx) (k : dot_S2048x256_S1024x256_S2048x1024_1_1_0_0_n_n.contr.Idx) : (dot_S2048x256_S1024x256_S2048x1024_1_1_0_0_n_n.lhsIdx i k 1).val = (k ⟨0, by decide⟩).val :=
  dot_S2048x256_S1024x256_S2048x1024_1_1_0_0_n_n.lhsIdx_val_of_single rfl i k
theorem rhs_0 (i : S2048x1024.Idx) (k : dot_S2048x256_S1024x256_S2048x1024_1_1_0_0_n_n.contr.Idx) : (dot_S2048x256_S1024x256_S2048x1024_1_1_0_0_n_n.rhsIdx i k 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl
theorem rhs_1 (i : S2048x1024.Idx) (k : dot_S2048x256_S1024x256_S2048x1024_1_1_0_0_n_n.contr.Idx) : (dot_S2048x256_S1024x256_S2048x1024_1_1_0_0_n_n.rhsIdx i k 1).val = (k ⟨0, by decide⟩).val :=
  dot_S2048x256_S1024x256_S2048x1024_1_1_0_0_n_n.rhsIdx_val_of_single rfl i k

/-- The product into the zero accumulator, at `(p, q)`: the sum over the shared last axis. -/
theorem matmul_zero_apply (l : FVec Ideal S2048x256 .bf16) (r : FVec Ideal S1024x256 .bf16) (p : Fin 2048) (q : Fin 1024) :
    matmul dot_S2048x256_S1024x256_S2048x1024_1_1_0_0_n_n none l r (constant (F := Ideal) S2048x1024 .f32 0x00000000#32) (ix2 p q)
      = ∑ kk : Fin 256, l (ix2 p kk) * r (ix2 q kk) := by
  simp only [matmul]
  rw [Ideal.matmul_constant_zero_apply, ← Equiv.sum_comp (contrEquiv1 dot_S2048x256_S1024x256_S2048x1024_1_1_0_0_n_n 256 rfl rfl).symm]
  refine Finset.sum_congr rfl fun k _ => ?_
  have hk := contrEquiv1_symm_val dot_S2048x256_S1024x256_S2048x1024_1_1_0_0_n_n 256 rfl rfl k
  have el : dot_S2048x256_S1024x256_S2048x1024_1_1_0_0_n_n.lhsIdx (ix2 p q) ((contrEquiv1 dot_S2048x256_S1024x256_S2048x1024_1_1_0_0_n_n 256 rfl rfl).symm k) = ix2 p k := funext fun a => Fin.ext (by
    match a with
    | ⟨0, _⟩ => exact lhs_0 _ _
    | ⟨1, _⟩ => exact (lhs_1 _ _).trans hk)
  have er : dot_S2048x256_S1024x256_S2048x1024_1_1_0_0_n_n.rhsIdx (ix2 p q) ((contrEquiv1 dot_S2048x256_S1024x256_S2048x1024_1_1_0_0_n_n 256 rfl rfl).symm k) = ix2 q k := funext fun a => Fin.ext (by
    match a with
    | ⟨0, _⟩ => exact rhs_0 _ _
    | ⟨1, _⟩ => exact (rhs_1 _ _).trans hk)
  rw [el, er]

/-! ## The stored values -/

/-- The reset stores zero everywhere. -/
theorem reset_apply (j : S2048x1024.Idx) : k0_pay1 (F := Ideal) j = 0 := by
  unfold k0_pay1
  rw [shapeCast_self]
  exact Ideal.ofBits_zero_f32

/-- The accumulation step at `(p, q)`. -/
theorem step_apply (x : Vec Ideal S2048x256 .f32) (w : Vec Ideal S1024x256 .i32) (sc : Vec Ideal S1024x1 .f32)
    (acc : Vec Ideal S2048x1024 .f32) (p : Fin 2048) (q : Fin 1024) :
    k0_pay2 (F := Ideal) x w sc acc (ix2 p q)
      = acc (ix2 p q) + ∑ kk : Fin 256, x (ix2 p kk) * ((FloatOps.sitofp .f32 (w (ix2 q kk)) : Ideal .f32) * sc (ix2 q (0 : Fin 1))) := by
  unfold k0_pay2
  simp only [shapeCast_self]
  rw [addf_apply, matmul_zero_apply]
  refine congrArg (acc (ix2 p q) + ·) (Finset.sum_congr rfl fun kk _ => ?_)
  rw [truncf_apply, truncf_apply, mulf_apply, sitofp_apply, broadcastTo_a1_ab_apply]

/-- The final value at `(p, q)`: the accumulator plus the bias of column `q`. -/
theorem final_apply (acc : Vec Ideal S2048x1024 .f32) (b : Vec Ideal S1x1024 .f32) (p : Fin 2048) (q : Fin 1024) :
    k0_pay3 (F := Ideal) acc b (ix2 p q) = acc (ix2 p q) + b (ix2 (0 : Fin 1) q) := by
  unfold k0_pay3
  simp only [shapeCast_self]
  rw [addf_apply, broadcastTo_1b_ab_apply]

end Cert.KernelIdeal.Payload

end
-- ==== Proof.PartialSum.lean ====
/-
  Partial sums of a sequence of extended reals, cut into consecutive blocks of equal length.

  A sum over the first `n` terms of `g : ℕ → EReal` is written `psum g n`.  Addition on the extended
  reals is commutative and associative with `0` neutral, so a partial sum up to `B * (k + 1)` is the partial
  sum up to `B * k` plus the sum of the `k`-th block of `B` terms; nothing here needs a term to be finite.
  A family indexed by `Fin n` is extended by zero beyond `n` so that its partial sums can be taken.
-/
import Mathlib.Data.EReal.Basic
import Mathlib.Algebra.BigOperators.Fin
import Mathlib.Algebra.BigOperators.Intervals

namespace Cert.PartialSum

open Finset

/-- The sum of the first `n` terms. -/
noncomputable def psum (g : ℕ → EReal) (n : ℕ) : EReal := ∑ q ∈ range n, g q

theorem psum_zero (g : ℕ → EReal) : psum g 0 = 0 := by
  simp [psum]

/-- One more block of `B` terms: the partial sum up to `B * (k + 1)` is the one up to `B * k` plus the
    block's own sum, the block indexed by `Fin B`. -/
theorem psum_block (g : ℕ → EReal) (B k : ℕ) :
    psum g (B * (k + 1)) = psum g (B * k) + ∑ j : Fin B, g (B * k + j.val) := by
  unfold psum
  rw [Nat.mul_succ, Finset.sum_range_add]
  exact congrArg (_ + ·) (Finset.sum_range fun x => g (B * k + x))

/-- The whole sum, indexed by `Fin n`. -/
theorem psum_all (g : ℕ → EReal) (n : ℕ) : psum g n = ∑ q : Fin n, g q.val := by
  unfold psum
  exact Finset.sum_range g

/-- A family over `Fin n`, continued by zero. -/
noncomputable def ext {n : ℕ} (f : Fin n → EReal) : ℕ → EReal := fun k => if h : k < n then f ⟨k, h⟩ else 0

theorem ext_of_lt {n : ℕ} (f : Fin n → EReal) (k : ℕ) (h : k < n) : ext f k = f ⟨k, h⟩ := dif_pos h

/-- All `n` terms of the continued family: the family's own sum. -/
theorem psum_ext_all {n : ℕ} (f : Fin n → EReal) : psum (ext f) n = ∑ q : Fin n, f q := by
  rw [psum_all]
  exact Finset.sum_congr rfl fun q _ => ext_of_lt f q.val q.isLt

end Cert.PartialSum
-- ==== Proof.Accumulate.lean ====
/-
  The accumulator after every grid point, and the output block at the last contraction step, over the extended reals.

  Write `X` for the activations as an 8192 × 4096 array, `W` for the integer weights, `S` for the scales' column and
  `B` for the bias row, all as the region finds them.  For an output row `r` and column `o` the `k`-th product is
  `X (r, k) · (W (o, k) · S (o, 0))`.  After the point with contraction step `n % 16` the accumulator of the point's
  block holds, at row `p` and column `q` of the block, the sum of the first `256 · (n % 16 + 1)` products of the array's
  row `2048 · (n / 64) + p` and column `1024 · (n / 16 % 4) + q`: by induction on the point — a first step adds its 256
  products to zero, a later step adds its 256 products to what the point before left, and the block's row and column do
  not change inside a run of sixteen steps.  At the sixteenth step all 4096 products are summed and the output block
  holds that sum plus the bias of the column.
-/
import proofs.«181437_j65515431133373_1_alg».proof.Proof.Recursion
import proofs.«181437_j65515431133373_1_alg».proof.Proof.Payload
import proofs.«181437_j65515431133373_1_alg».proof.Proof.PartialSum

set_option maxRecDepth 16384

noncomputable section

namespace Cert.KernelIdeal.Accumulate

open Cert.KernelIdeal Cert.KernelIdeal.Gen Idealize.ShloMosaic Idealize.ShloMosaic.TcCoe Idealize.SL.Sem Idealize.ShloMosaic.ValueIdx
open Cert.PartialSum Cert.KernelIdeal.Recursion Cert.KernelIdeal.Payload Cert.KernelIdeal.Blocks

variable (m : (ℓ : Loc nD τ sig) → Buf (Elt Ideal) ℓ) (c : Dev nD)

/-- The `k`-th product of output row `r` and column `o`. -/
def term (r : Fin 8192) (o : Fin 4096) (k : Fin 4096) : EReal :=
  actArr m c (ix2 r k) * ((FloatOps.sitofp .f32 (wArr m c (ix2 o k)) : Ideal .f32) * scaleArr m c (ix2 o (0 : Fin 1)))

/-- The 256 products a point adds are the point's block of the 4096 products of its row and column. -/
theorem block_sum (t : Fin cfg0.N) (p : Fin 2048) (q : Fin 1024) (r : Fin 8192) (o : Fin 4096)
    (hr : r.val = 2048 * (t.val / 64) + p.val) (ho : o.val = 1024 * (t.val / 16 % 4) + q.val) :
    (∑ kk : Fin 256, actBlk m c t (ix2 p kk)
        * ((FloatOps.sitofp .f32 (wBlk m c t (ix2 q kk)) : Ideal .f32) * scaleBlk m c t (ix2 q (0 : Fin 1))))
      = ∑ j : Fin 256, ext (term m c r o) (256 * (t.val % 16) + j.val) := by
  refine Finset.sum_congr rfl fun kk _ => ?_
  have hN : t.val < 256 := lt_of_lt_of_eq t.isLt (show cfg0.N = 256 from N_0)
  have hk : 256 * (t.val % 16) + kk.val < 4096 := by have := kk.isLt; omega
  rw [ext_of_lt _ _ hk]
  unfold term
  rw [x_block m c t p kk r ⟨_, hk⟩ hr rfl, w_block m c t q kk o ⟨_, hk⟩ ho rfl, scale_block m c t q o ho]

/-- THE ACCUMULATOR after point `n`: the partial sum up to the point's contraction step. -/
theorem acc_eq : ∀ (n : ℕ) (h : n < cfg0.N) (p : Fin 2048) (q : Fin 1024) (r : Fin 8192) (o : Fin 4096),
    r.val = 2048 * (n / 64) + p.val → o.val = 1024 * (n / 16 % 4) + q.val →
    (outsAt0 m c n h).2 (ix2 p q) = psum (ext (term m c r o)) (256 * (n % 16 + 1)) := by
  intro n
  induction n with
  | zero =>
    intro h p q r o hr ho
    refine (congrFun (acc_first m c ⟨0, h⟩ rfl) (ix2 p q)).trans ?_
    refine (step_apply (actBlk m c ⟨0, h⟩) (wBlk m c ⟨0, h⟩) (scaleBlk m c ⟨0, h⟩) (k0_pay1 (F := Ideal)) p q).trans ?_
    rw [reset_apply, block_sum m c ⟨0, h⟩ p q r o hr ho]
    exact (congrArg (· + _) (psum_zero _).symm).trans (psum_block (ext (term m c r o)) 256 0).symm
  | succ n ih =>
    intro h p q r o hr ho
    have hN : n + 1 < 256 := lt_of_lt_of_eq h (show cfg0.N = 256 from N_0)
    by_cases h0 : (n + 1) % 16 = 0
    · refine (congrFun (acc_first m c ⟨n + 1, h⟩ h0) (ix2 p q)).trans ?_
      refine (step_apply (actBlk m c ⟨n + 1, h⟩) (wBlk m c ⟨n + 1, h⟩) (scaleBlk m c ⟨n + 1, h⟩) (k0_pay1 (F := Ideal)) p q).trans ?_
      rw [reset_apply, block_sum m c ⟨n + 1, h⟩ p q r o hr ho]
      show 0 + ∑ j : Fin 256, ext (term m c r o) (256 * ((n + 1) % 16) + j.val) = psum (ext (term m c r o)) (256 * ((n + 1) % 16 + 1))
      rw [h0]
      exact (congrArg (· + _) (psum_zero _).symm).trans (psum_block (ext (term m c r o)) 256 0).symm
    · refine (congrFun (acc_next m c ⟨n + 1, h⟩ h0) (ix2 p q)).trans ?_
      refine (step_apply (actBlk m c ⟨n + 1, h⟩) (wBlk m c ⟨n + 1, h⟩) (scaleBlk m c ⟨n + 1, h⟩) _ p q).trans ?_
      rw [block_sum m c ⟨n + 1, h⟩ p q r o hr ho]
      have ih' := ih (Nat.lt_of_succ_lt h) p q r o (by omega) (by omega)
      have e : (n + 1) % 16 = n % 16 + 1 := by omega
      show (outsAt0 m c n _).2 (ix2 p q) + ∑ j : Fin 256, ext (term m c r o) (256 * ((n + 1) % 16) + j.val) = psum (ext (term m c r o)) (256 * ((n + 1) % 16 + 1))
      rw [ih', e]
      exact (psum_block (ext (term m c r o)) 256 (n % 16 + 1)).symm

/-- THE OUTPUT BLOCK at a sixteenth step: all 4096 products of the row and column, plus the column's bias. -/
theorem out_eq (t : Fin cfg0.N) (h1 : t.val % 16 = 15) (p : Fin 2048) (q : Fin 1024) (r : Fin 8192) (o : Fin 4096)
    (hr : r.val = 2048 * (t.val / 64) + p.val) (ho : o.val = 1024 * (t.val / 16 % 4) + q.val) :
    (outsAt0 m c t.val t.isLt).1 (ix2 p q) = (∑ k : Fin 4096, term m c r o k) + biasArr m c (ix2 (0 : Fin 1) o) := by
  have h0 : ¬t.val % 16 = 0 := by omega
  refine (congrFun (out_last m c t h1) (ix2 p q)).trans ?_
  rw [← acc_next m c t h0]
  refine (final_apply (outsAt0 m c t.val t.isLt).2 (biasBlk m c t) p q).trans ?_
  rw [acc_eq m c t.val t.isLt p q r o hr ho, h1, bias_block m c t q o ho]
  exact congrArg (· + _) (psum_ext_all (term m c r o))

end Cert.KernelIdeal.Accumulate
end
-- ==== Proof.Spec.lean ====
/-
  The function both programs compute over the extended reals: a linear layer whose weights are integers with one
  scale per output channel.  For a batch `b`, a position `s` and an output channel `o`,

      y (b, s, o) = (∑ k < 4096, x (b, s, k) · (w (o, k) · scale (o, 0))) + bias (o),

  the integer `w (o, k)` converted exactly.
-/
import Idealize.ShloMosaic.PureOps.Ideal
import Idealize.ShloMosaic.Lib.ValueIdx

noncomputable section

namespace Cert.Spec

open Idealize.ShloMosaic Idealize.ShloMosaic.ValueIdx

/-- The layer, index by index. -/
def linear (x : (⟨3, ![4, 2048, 4096]⟩ : Shape).Idx → EReal) (w : (⟨2, ![4096, 4096]⟩ : Shape).Idx → BitVec 32)
    (scale : (⟨2, ![4096, 1]⟩ : Shape).Idx → EReal) (bias : (⟨1, ![4096]⟩ : Shape).Idx → EReal) :
    (⟨3, ![4, 2048, 4096]⟩ : Shape).Idx → EReal :=
  fun i => (∑ k : Fin 4096, x (ix3 (i 0 : Fin 4) (i 1 : Fin 2048) k)
      * ((FloatOps.sitofp .f32 (w (ix2 (i 2 : Fin 4096) k)) : Ideal .f32) * scale (ix2 (i 2 : Fin 4096) (0 : Fin 1))))
    + bias (ix1 (i 2 : Fin 4096))

/-- The layer at explicit coordinates. -/
theorem linear_apply (x : (⟨3, ![4, 2048, 4096]⟩ : Shape).Idx → EReal) (w : (⟨2, ![4096, 4096]⟩ : Shape).Idx → BitVec 32)
    (scale : (⟨2, ![4096, 1]⟩ : Shape).Idx → EReal) (bias : (⟨1, ![4096]⟩ : Shape).Idx → EReal)
    (b : Fin 4) (s : Fin 2048) (o : Fin 4096) :
    linear x w scale bias (ix3 b s o) = (∑ k : Fin 4096, x (ix3 b s k)
      * ((FloatOps.sitofp .f32 (w (ix2 o k)) : Ideal .f32) * scale (ix2 o (0 : Fin 1)))) + bias (ix1 o) := rfl

end Cert.Spec

end
-- ==== Proof.KernelValue.lean ====
/-
  The kernel's result array over the extended reals.

  The output window's blocks are written back at the sixteenth contraction steps only; the block written back at
  point `t` is rows `2048 · (t / 64) + p`, columns `1024 · (t / 16 % 4) + q` of ONE 8192 × 4096 array — every entry the sum
  of its row's and column's 4096 products plus the column's bias — and the sixteen such blocks tile the array: the
  point that covers row `r` and column `c` is `((r / 2048) · 4 + c / 1024) · 16 + 15`.  So the region leaves that array
  in the call's result.  Around the region the host reshapes the activations from 4 × 2048 × 4096 to 8192 × 4096 (row
  `2048 · b + s` is batch `b`, position `s`), the bias to one row, and the call's result back to 4 × 2048 × 4096;
  read through the three reshapes the result is the layer of the four arguments.
-/
import proofs.«181437_j65515431133373_1_alg».proof.Proof.Accumulate
import proofs.«181437_j65515431133373_1_alg».proof.Proof.Spec
import Idealize.ShloMosaic.Lib.Pipeline.Value
import Idealize.ShloMosaic.Lib.ValueLayout
import Idealize.ShloMosaic.Lib.StableHlo.Run
import Idealize.ShloMosaic.Lib.Tactic

set_option maxRecDepth 16384

noncomputable section

namespace Cert.KernelIdeal.KernelValue

open Cert.KernelIdeal Cert.KernelIdeal.Gen Idealize.ShloMosaic Idealize.ShloMosaic.TcCoe Idealize.SL.Sem Idealize.ShloMosaic.ValueIdx
open Idealize.ShloMosaic.Pipeline (Dat)
open Cert.KernelIdeal.Accumulate Cert.KernelIdeal.Blocks

variable (m : (ℓ : Loc nD τ sig) → Buf (Elt Ideal) ℓ) (ρ : Dev nD → PrngReg) (c : Dev nD)

/-! ## The call's result array -/

/-- The 8192 × 4096 array the region leaves: each entry its row's and column's 4096 products summed, plus the column's
    bias. -/
def call : S8192x4096.Idx → EReal :=
  fun j => (∑ k : Fin 4096, term m c (j 0) (j 1) k) + biasArr m c (ix2 (0 : Fin 1) (j 1))

/-- What a flushing point writes back is its block of that array. -/
theorem flushed_eq (t : Fin cfg0.N) (hf : (cfg0.win 4).flush t = true) :
    (dats m 0 c).flushed 4 t = ((cfg0.win 4).blk t).view.read (Elt Ideal) (call m c) := by
  have h1 : t.val % 16 = 15 := (flush0_4 t).mp hf
  have hN : t.val < 256 := lt_of_lt_of_eq t.isLt (show cfg0.N = 256 from N_0)
  show (cfg0.win 4).cut (grid0.coords t) ((dats m 0 c).after 4 t) = _
  rw [after0_4]
  funext y
  rw [View.read_apply]
  have hy0 : (y 0).val < 2048 := (y 0).isLt
  have hy1 : (y 1).val < 1024 := (y 1).isLt
  obtain ⟨p, hp⟩ : ∃ p : Fin 2048, p.val = (y 0).val := ⟨⟨_, hy0⟩, rfl⟩
  obtain ⟨q, hq⟩ : ∃ q : Fin 1024, q.val = (y 1).val := ⟨⟨_, hy1⟩, rfl⟩
  have ey : y = ix2 p q := funext fun a => Fin.ext (by
    match a with
    | ⟨0, _⟩ => exact hp.symm
    | ⟨1, _⟩ => exact hq.symm)
  have hp' := p.isLt
  have hq' := q.isLt
  have e0 : ((cfg0.win 4).blk t).view.emb y 0 = (⟨2048 * (t.val / 64) + p.val, by omega⟩ : Fin 8192) := Fin.ext (by
    show win0_4.index t 0 * 2048 + 1 * (y 0).val = 2048 * (t.val / 64) + p.val
    rw [(idx_facts t).2.2.2.2.2.2.2.2.1]; omega)
  have e1 : ((cfg0.win 4).blk t).view.emb y 1 = (⟨1024 * (t.val / 16 % 4) + q.val, by omega⟩ : Fin 4096) := Fin.ext (by
    show win0_4.index t 1 * 1024 + 1 * (y 1).val = 1024 * (t.val / 16 % 4) + q.val
    rw [(idx_facts t).2.2.2.2.2.2.2.2.2]; omega)
  show (outsAt0 m c t.val t.isLt).1 y
    = (∑ k : Fin 4096, term m c (((cfg0.win 4).blk t).view.emb y 0) (((cfg0.win 4).blk t).view.emb y 1) k)
      + biasArr m c (ix2 (0 : Fin 1) (((cfg0.win 4).blk t).view.emb y 1))
  rw [e0, e1]
  refine (congrArg (outsAt0 m c t.val t.isLt).1 ey).trans ?_
  exact out_eq m c t h1 p q _ _ rfl rfl

/-- An index of the array is in point `t`'s block iff each coordinate is in the block's range on its axis. -/
theorem mem_blk (t : Fin cfg0.N) (i : S8192x4096.Idx) :
    i ∈ ((cfg0.win 4).blk t).view.set ↔ ∀ a : Fin 2, win0_4.index t a * S2048x1024.size a ≤ (i a).val ∧ (i a).val < win0_4.index t a * S2048x1024.size a + S2048x1024.size a := by
  show i ∈ ((View.whole main_v2).slice (win0_4.rect t)).set ↔ _
  rw [View.set_slice_whole, Rect.mem_set_unit]
  exact Iff.rfl

/-- Every index is in some flushing point's block. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 256 := N_0
  obtain ⟨t, ht⟩ : ∃ t : Fin cfg0.N, t.val = ((i 0).val / 2048 * 4 + (i 1).val / 1024) * 16 + 15 :=
    ⟨⟨((i 0).val / 2048 * 4 + (i 1).val / 1024) * 16 + 15, by rw [hN]; omega⟩, rfl⟩
  refine ⟨t, (flush0_4 t).mpr (by omega), ?_⟩
  rw [mem_blk]
  obtain ⟨-, -, -, -, -, -, -, -, e0, e1⟩ := idx_facts t
  intro a
  match a with
  | ⟨0, _⟩ =>
    show win0_4.index t 0 * 2048 ≤ (i 0).val ∧ (i 0).val < win0_4.index t 0 * 2048 + 2048
    rw [e0]; omega
  | ⟨1, _⟩ =>
    show win0_4.index t 1 * 1024 ≤ (i 1).val ∧ (i 1).val < win0_4.index t 1 * 1024 + 1024
    rw [e1]; omega

/-- So the call's result array ends holding it. -/
theorem final : (dats m 0 c).arrAt 4 cfg0.N = call m c :=
  (dats m 0 c).arrAt_eq_of_cover 4 (call m c) (flushed_eq m c) (cover)

/-! ## The host's reshapes around the region -/

/-- The activations as the region finds them: the argument reshaped. -/
theorem act_eq : actArr m c = shapeCast S8192x4096 (m ((c : Thread nD τ).loc main_arg0)) shapeCasts_S4x2048x4096_S8192x4096 := by
  show StableHlo.after hostOps0 (fun b => m (c, b)) (Proc.devRef .tc main_v0) = _
  after_results
  rfl

/-- The bias row as the region finds it: the argument reshaped. -/
theorem bias_eq : biasArr m c = shapeCast S1x4096 (m ((c : Thread nD τ).loc main_arg3)) shapeCasts_S4096_S1x4096 := by
  show StableHlo.after hostOps0 (fun b => m (c, b)) (Proc.devRef .tc main_v1) = _
  after_results
  rfl

theorem w_eq : wArr m c = m ((c : Thread nD τ).loc main_arg1) := V_main_arg1 m c
theorem scale_eq : scaleArr m c = m ((c : Thread nD τ).loc main_arg2) := V_main_arg2 m c

/-- The program's result: the call's result array reshaped. -/
theorem tail_eq : Pipeline.afterTail₀ cfgs (dats m) 0 (V0 m) [hostOps1] c main_v3
    = shapeCast S4x2048x4096 (call m c) shapeCasts_S8192x4096_S4x2048x4096 := by
  unfold Pipeline.afterTail₀
  show StableHlo.after hostOps1 _ (Proc.devRef .tc main_v3) = _
  after_results
  rw [(Pipeline.withArrays_arr spec0 launch0.win.arr_inj c _ _ 4).trans (final m c)]
  rfl

/-! ## The result is the layer -/

/-- The call's result array reshaped is the layer of the four arguments. -/
theorem result_eq : shapeCast S4x2048x4096 (call m c) shapeCasts_S8192x4096_S4x2048x4096
    = Cert.Spec.linear (m ((c : Thread nD τ).loc main_arg0)) (m ((c : Thread nD τ).loc main_arg1))
        (m ((c : Thread nD τ).loc main_arg2)) (m ((c : Thread nD τ).loc main_arg3)) := by
  funext i
  obtain ⟨b, s, o, rfl⟩ : ∃ (b : Fin 4) (s : Fin 2048) (o : Fin 4096), i = ix3 b s o := ⟨i 0, i 1, i 2, eq_ix3 i⟩
  have hb := b.isLt
  have hs := s.isLt
  have hr : 2048 * b.val + s.val < 8192 := by omega
  rw [shapeCast_apply (call m c) shapeCasts_S8192x4096_S4x2048x4096 (ix3 b s o) (ix2 (⟨2048 * b.val + s.val, hr⟩ : Fin 8192) o) (by
    rw [Shape.rowMajor_val_two, Shape.rowMajor_val_three]
    show (2048 * b.val + s.val) * 4096 + o.val = (b.val * 2048 + s.val) * 4096 + o.val
    omega)]
  rw [Cert.Spec.linear_apply]
  unfold call
  show (∑ k : Fin 4096, term m c ⟨2048 * b.val + s.val, hr⟩ o k) + biasArr m c (ix2 (0 : Fin 1) o) = _
  rw [bias_eq, shapeCast_a_1a_apply]
  refine congrArg (· + _) (Finset.sum_congr rfl fun k _ => ?_)
  unfold term
  rw [act_eq, w_eq, scale_eq, shapeCast_apply (m ((c : Thread nD τ).loc main_arg0)) shapeCasts_S4x2048x4096_S8192x4096
    (ix2 (⟨2048 * b.val + s.val, hr⟩ : Fin 8192) k) (ix3 b s k) (by
      show (S4x2048x4096.rowMajor (ix3 b s k)).val = (S8192x4096.rowMajor (ix2 (⟨2048 * b.val + s.val, hr⟩ : Fin 8192) k)).val
      rw [Shape.rowMajor_val_two, Shape.rowMajor_val_three]
      show (b.val * 2048 + s.val) * 4096 + k.val = (2048 * b.val + s.val) * 4096 + k.val
      omega)]

/-! ## The run, read -/

/-- Every weakly fair execution of the program terminates with its result at the layer of the arguments, the
    arguments unchanged. -/
theorem run : θ_run defs (onTc (τ := τ) (main (F := Ideal))) ⟨m, fun _ => 0, ρ⟩ fun r => ∀ c : Dev nD,
      r.2.mem ((c.tc : Thread nD τ).loc main_v3)
        = Cert.Spec.linear (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(((h c).2 main_v3 (Pipeline.mem_restRefs_of main_v3 (by decide) (by decide))).trans (tail_eq m c)).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c))),
       ((h c).2 main_arg3 (Pipeline.mem_restRefs_of main_arg3 (by decide) (by decide))).trans (W_main_arg3 m (dats m) c)⟩)
    (run_main m ρ)

end Cert.KernelIdeal.KernelValue
end
-- ==== Proof.RefValue.lean ====
/-
  The reference computes the layer: its seven host operations — the weights converted, the scales' column broadcast
  along the rows, their product, the contraction of the activations' last axis with the product's last axis, the
  bias broadcast over batches and positions, the sum — read at an index give the layer's formula term by term.
-/
import proofs.«181437_j65515431133373_1_alg».proof.Proof.Gen.ReferenceIdeal.Read
import proofs.«181437_j65515431133373_1_alg».proof.Proof.Spec

set_option maxRecDepth 16384

noncomputable section

namespace Cert.ReferenceIdeal.RefValue

open Cert.ReferenceIdeal Cert.ReferenceIdeal.Gen Cert.ReferenceIdeal.Read Idealize.ShloMosaic Idealize.ShloMosaic.ValueIdx

/-- The reference's last stage is the layer of the four arguments. -/
theorem ref_eq (x0 : (⟨S4x2048x4096, .f32⟩ : BufTy).Contents (Elt Ideal)) (x1 : (⟨S4096x4096, .i32⟩ : BufTy).Contents (Elt Ideal))
    (x2 : (⟨S4096x1, .f32⟩ : BufTy).Contents (Elt Ideal)) (x3 : (⟨S4096, .f32⟩ : BufTy).Contents (Elt Ideal)) :
    val_main_v6 (F := Ideal) x0 x1 x2 x3 = Cert.Spec.linear x0 x1 x2 x3 := by
  funext i
  obtain ⟨b, s, o, rfl⟩ : ∃ (b : Fin 4) (s : Fin 2048) (o : Fin 4096), i = ix3 b s o := ⟨i 0, i 1, i 2, eq_ix3 i⟩
  have e1 : ∀ k : Fin 4096, lidx_main_v3 (ix3 b s o) k = ix3 b s k := fun k => funext fun a => Fin.ext (by
    match a with
    | ⟨0, _⟩ => rfl
    | ⟨1, _⟩ => rfl
    | ⟨2, _⟩ => rfl)
  have e2 : ∀ k : Fin 4096, ridx_main_v3 (ix3 b s o) k = ix2 o k := fun k => funext fun a => Fin.ext (by
    match a with
    | ⟨0, _⟩ => rfl
    | ⟨1, _⟩ => rfl)
  have e3 : ∀ k : Fin 4096, idx_main_v1 (ix2 o k) = ix2 o (0 : Fin 1) := fun k => funext fun a => Fin.ext (by
    match a with
    | ⟨0, _⟩ => rfl
    | ⟨1, _⟩ => rfl)
  have e4 : idx_main_v4 (idx_main_v5 (ix3 b s o)) = ix1 o := funext fun a => Fin.ext (by
    match a with
    | ⟨0, _⟩ => rfl)
  rw [val_main_v6_apply, val_main_v3_apply, val_main_v5_apply, val_main_v4_apply, e4, Cert.Spec.linear_apply]
  show (∑ k : Fin 4096, x0 (lidx_main_v3 (ix3 b s o) k) * val_main_v2 (F := Ideal) x1 x2 (ridx_main_v3 (ix3 b s o) k)) + x3 (ix1 o) = _
  refine congrArg (· + _) (Finset.sum_congr rfl fun k _ => ?_)
  rw [e1, e2, val_main_v2_apply, val_main_v0_apply, val_main_v1_apply, e3]
  rfl

end Cert.ReferenceIdeal.RefValue
end
-- ==== Proof.lean ====
/-
  A linear layer with integer weights and one scale per output channel, computed by a tiled kernel, against its
  plain reference — equal over the extended reals.

  The kernel walks a 4 × 4 × 16 grid: for each 2048 × 1024 block of the 8192 × 4096 result it runs sixteen contraction
  steps of 256, keeping the block's partial sums in an accumulator that is reset at the first step, and adds the bias
  and writes the block out at the sixteenth.  The reference contracts all 4096 terms at once and adds the bias.  Over the
  extended reals a change of float format is the identity and addition is commutative and associative with zero
  neutral, so the accumulator after sixteen steps is the reference's sum: the sum over 4096 terms cut into sixteen
  consecutive blocks (Proof/PartialSum.lean).  No term has to be finite for that, so the precondition is never opened.

  * Proof/Spec.lean — the layer, index by index;
  * Proof/RefValue.lean — the reference's operations, read at an index, are the layer;
  * Proof/Payload.lean — the body's three stored values at an index;
  * Proof/Pieces.lean, Proof/Recursion.lean — what each run of the body leaves, and the recursion over the points;
  * Proof/Blocks.lean — where each window's block sits in its array;
  * Proof/Accumulate.lean — the accumulator after every point, by induction, and the output block;
  * Proof/KernelValue.lean — the blocks tile the result, the host's reshapes, and the kernel's run read as the layer.

  No operation was rewritten in passing to the idealized kernel, so the idealization claim is trivial; the three frames
  are the generated frame runs (the reference's from its generated run).
-/
import proofs.«181437_j65515431133373_1_alg».proof.Defs
import proofs.«181437_j65515431133373_1_alg».proof.Proof.Gen.Kernel
import proofs.«181437_j65515431133373_1_alg».proof.Proof.Gen.Kernel.Skeleton
import proofs.«181437_j65515431133373_1_alg».proof.Proof.Gen.Kernel.Launch
import proofs.«181437_j65515431133373_1_alg».proof.Proof.Gen.Kernel.Points
import proofs.«181437_j65515431133373_1_alg».proof.Proof.Gen.Kernel.Frame
import proofs.«181437_j65515431133373_1_alg».proof.Proof.Gen.KernelIdeal
import proofs.«181437_j65515431133373_1_alg».proof.Proof.Gen.KernelIdeal.Skeleton
import proofs.«181437_j65515431133373_1_alg».proof.Proof.Gen.KernelIdeal.Launch
import proofs.«181437_j65515431133373_1_alg».proof.Proof.Gen.KernelIdeal.Points
import proofs.«181437_j65515431133373_1_alg».proof.Proof.Gen.KernelIdeal.Frame
import proofs.«181437_j65515431133373_1_alg».proof.Proof.Gen.ReferenceIdeal
import proofs.«181437_j65515431133373_1_alg».proof.Proof.Gen.Pre_finite_inputs
import proofs.«181437_j65515431133373_1_alg».proof.Proof.Gen.ReferenceIdeal.Run
import proofs.«181437_j65515431133373_1_alg».proof.Proof.Gen.ReferenceIdeal.Read
import proofs.«181437_j65515431133373_1_alg».proof.Proof.KernelValue
import proofs.«181437_j65515431133373_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer of the arguments they agree on. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
